-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x32 : Shape := ⟨2, ![32, 32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg8 : FVec F S32 .f32) (main_arg9 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S32 .f32) (main_arg6 : FVec F S32 .f32) (main_arg7 : FVec F S32 .f32) (main_arg8 : FVec F S32 .f32) (main_arg9 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S2x1600000 32) (main_arg2 : FVec F S512x32 .f32) (main_arg3 : FVec F S32 .f32) (main_arg4 : FVec F S32x32 .f32) (main_arg5 : FVec F S32 .f32) (main_arg6 : FVec F S32 .f32) (main_arg7 : FVec F S32 .f32) (main_arg8 : FVec F S32 .f32) (main_arg9 : FVec F S32 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S5000x512 : Shape := ⟨2, ![5000, 512]⟩
abbrev S5000x32 : Shape := ⟨2, ![5000, 32]⟩
abbrev S1600000x32 : Shape := ⟨2, ![1600000, 32]⟩
abbrev S1x32 : Shape := ⟨2, ![1, 32]⟩
abbrev S5000x1 : Shape := ⟨2, ![5000, 1]⟩
abbrev S10000x32 : Shape := ⟨2, ![10000, 32]⟩

abbrev nBuf : Space → Nat
  | .hbm => 87
  | .vmem => 32
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .f32⟩
  | .hbm, ⟨44, _⟩ => ⟨S100000x1, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S1600000x1, .f32⟩
  | .hbm, ⟨56, _⟩ => ⟨S1600000x32, .f32⟩
  | .hbm, ⟨57, _⟩ => ⟨S1600000x32, .f32⟩
  | .hbm, ⟨58, _⟩ => ⟨S_, .f32⟩
  | .hbm, ⟨59, _⟩ => ⟨S100000x32, .f32⟩
  | .hbm, ⟨60, _⟩ => ⟨S1600000x1, .i32⟩
  | .hbm, ⟨61, _⟩ => ⟨S100000x32, .f32⟩
  | .hbm, ⟨62, _⟩ => ⟨S1x32, .f32⟩
  | .hbm, ⟨63, _⟩ => ⟨S1x32, .f32⟩
  | .hbm, ⟨64, _⟩ => ⟨S1x32, .f32⟩
  | .hbm, ⟨65, _⟩ => ⟨S1x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x32, .f32⟩
  | .hbm, ⟨78, _⟩ => ⟨S1600000x1, .f32⟩
  | .hbm, ⟨79, _⟩ => ⟨S1600000x32, .f32⟩
  | .hbm, ⟨80, _⟩ => ⟨S1600000x32, .f32⟩
  | .hbm, ⟨81, _⟩ => ⟨S_, .f32⟩
  | .hbm, ⟨82, _⟩ => ⟨S100000x32, .f32⟩
  | .hbm, ⟨83, _⟩ => ⟨S1600000x1, .i32⟩
  | .hbm, ⟨84, _⟩ => ⟨S100000x32, .f32⟩
  | .hbm, ⟨85, _⟩ => ⟨S1x32, .f32⟩
  | .hbm, ⟨86, _⟩ => ⟨S100000x32, .f32⟩
  | .local _ .vmem, ⟨0, _⟩ => ⟨S5000x512, .f32⟩
  | .local _ .vmem, ⟨1, _⟩ => ⟨S5000x512, .f32⟩
  | .local _ .vmem, ⟨2, _⟩ => ⟨S512x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S10000x32, .f32⟩
  | .local _ .vmem, ⟨19, _⟩ => ⟨S10000x32, .f32⟩
  | .local _ .vmem, ⟨20, _⟩ => ⟨S32x32, .f32⟩
  | .local _ .vmem, ⟨21, _⟩ => ⟨S10000x32, .f32⟩
  | .local _ .vmem, ⟨22, _⟩ => ⟨S10000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x1, .f32⟩
  | .local _ .vmem, ⟨28, _⟩ => ⟨S5000x1, .f32⟩
  | .local _ .vmem, ⟨29, _⟩ => ⟨S1x32, .f32⟩
  | .local _ .vmem, ⟨30, _⟩ => ⟨S5000x32, .f32⟩
  | .local _ .vmem, ⟨31, _⟩ => ⟨S5000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x512_S512x32_S5000x32_1_0_0_1_n_n_wf : DotDims.WF S5000x512 S512x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x32.size a ≤ S100000x32.size a
  hwx1_8 : ∀ i : grid1.Coords, EltTy.bits .f32 = 32 ∨ (Rect.block (s := S100000x32) S5000x32.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S100000x32.size a
  hwx3_4 : ∀ i : grid3.Coords, EltTy.bits .f32 = 32 ∨ (Rect.block (s := S100000x32) S5000x32.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x512_S512x32_S5000x32_1_0_0_1_n_n : DotDims S5000x512 S512x32 S5000x32 where
  lhsContracting := [1]
  rhsContracting := [0]
  lhsNonContracting := [0]
  rhsNonContracting := [1]
  lhsBatch := []
  rhsBatch := []
  wf := dot_S5000x512_S512x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S5000x32.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x32 : Shape := ⟨2, ![100000, 32]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S1x32 : Shape := ⟨2, ![1, 32]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x1600000, .i32⟩
  | 2 => ⟨S512x32, .f32⟩
  | 3 => ⟨S32, .f32⟩
  | 4 => ⟨S32x32, .f32⟩
  | 5 => ⟨S32, .f32⟩
  | 6 => ⟨S32, .f32⟩
  | 7 => ⟨S32, .f32⟩
  | 8 => ⟨S32, .f32⟩
  | 9 => ⟨S32, .f32⟩
  | 10 => ⟨S1x1600000, .i32⟩
  | 11 => ⟨S1600000, .i32⟩
  | 12 => ⟨S1x1600000, .i32⟩
  | 13 => ⟨S1600000, .i32⟩
  | 14 => ⟨S100000x32, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x32, .f32⟩
  | 53 => ⟨S1600000x1, .f32⟩
  | 54 => ⟨S1600000x32, .f32⟩
  | 55 => ⟨S1600000x32, .f32⟩
  | 56 => ⟨S_, .f32⟩
  | 57 => ⟨S100000x32, .f32⟩
  | 58 => ⟨S1600000x1, .i32⟩
  | 59 => ⟨S100000x32, .f32⟩
  | 60 => ⟨S100000, .f32⟩
  | 61 => ⟨S100000x1, .f32⟩
  | 62 => ⟨S100000x32, .f32⟩
  | 63 => ⟨S100000x32, .f32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S1x32, .f32⟩
  | 72 => ⟨S100000x32, .f32⟩
  | 73 => ⟨S100000x32, .f32⟩
  | 74 => ⟨S_, .f32⟩
  | 75 => ⟨S32, .f32⟩
  | 76 => ⟨S32, .f32⟩
  | 77 => ⟨S32, .f32⟩
  | 78 => ⟨S1x32, .f32⟩
  | 79 => ⟨S100000x32, .f32⟩
  | 80 => ⟨S100000x32, .f32⟩
  | 81 => ⟨S1x32, .f32⟩
  | 82 => ⟨S100000x32, .f32⟩
  | 83 => ⟨S100000x32, .f32⟩
  | 84 => ⟨S1x32, .f32⟩
  | 85 => ⟨S100000x32, .f32⟩
  | 86 => ⟨S100000x32, .f32⟩
  | 87 => ⟨S100000x32, .f32⟩
  | 88 => ⟨S_, .f32⟩
  | 89 => ⟨S1600000, .f32⟩
  | 90 => ⟨S_, .f32⟩
  | 91 => ⟨S100000, .f32⟩
  | 92 => ⟨S1600000x1, .i32⟩
  | 93 => ⟨S100000, .f32⟩
  | 94 => ⟨S_, .f32⟩
  | 95 => ⟨S100000, .f32⟩
  | 96 => ⟨S100000, .f32⟩
  | 97 => ⟨S100000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x32, .f32⟩
  | 126 => ⟨S1600000x1, .f32⟩
  | 127 => ⟨S1600000x32, .f32⟩
  | _ => ⟨S100000x512, .f32⟩

abbrev hbmTy0_1 (i : Nat) : BufTy := match i % 128 with
  | 0 => ⟨S1600000x32, .f32⟩
  | 1 => ⟨S_, .f32⟩
  | 2 => ⟨S100000x32, .f32⟩
  | 3 => ⟨S1600000x1, .i32⟩
  | 4 => ⟨S100000x32, .f32⟩
  | 5 => ⟨S100000, .f32⟩
  | 6 => ⟨S100000x1, .f32⟩
  | 7 => ⟨S100000x32, .f32⟩
  | 8 => ⟨S100000x32, .f32⟩
  | 9 => ⟨S100000x32, .f32⟩
  | 10 => ⟨S1x32, .f32⟩
  | 11 => ⟨S100000x32, .f32⟩
  | 12 => ⟨S100000x32, .f32⟩
  | 13 => ⟨S_, .f32⟩
  | 14 => ⟨S100000x32, .f32⟩
  | 15 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_12 : Ref sig .tc := ⟨.hbm, 98, rfl⟩
abbrev main_v72 : Ref sig .tc := ⟨.hbm, 99, rfl⟩
abbrev main_v73 : Ref sig .tc := ⟨.hbm, 100, rfl⟩
abbrev main_c_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev main_v79 : Ref sig .tc := ⟨.hbm, 108, rfl⟩
abbrev main_v80 : Ref sig .tc := ⟨.hbm, 109, rfl⟩
abbrev main_c_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_16 : Ref sig .tc := ⟨.hbm, 117, rfl⟩
abbrev main_v87 : Ref sig .tc := ⟨.hbm, 118, rfl⟩
abbrev main_v88 : Ref sig .tc := ⟨.hbm, 119, rfl⟩
abbrev main_c_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_call1_cst : Ref sig .tc := ⟨.hbm, 141, rfl⟩
abbrev main_call1_v0 : Ref sig .tc := ⟨.hbm, 142, rfl⟩
abbrev main_v108 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  dot_S100000x512_S512x32_S100000x32_1_0_0_1_n_n_wf : DotDims.WF S100000x512 S512x32 S100000x32 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The idealized kernel's run with its result named. The program is four pipelined regions among three stretches of host
  operations; the contents of the TensorCore's buffers at each boundary are a fold from the launch memory (host
  stretches apply their operations, a region replaces its arrays by what its write-backs leave). Every weakly fair
  execution ends with each unscoped buffer at the last boundary's contents; in particular the result array holds the
  last boundary's contents at the result buffer, and the arguments are as launched.
-/
import proofs.«124719_j53334903882347_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of each core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The run with the result array named: it ends at the last boundary's contents of the result buffer, the arguments
    as launched. -/
theorem run_result : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)
    (run_all m ρ)

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.GcnSpec.lean ====
/-
  The entrywise mathematics of one graph-convolution layer, independent of any program.

  After the messages of a layer are aggregated, every node adds its own projected features weighted by the square of its
  inverse root degree (the self loop) and the bias, and the sum is clipped at zero. Between the two layers the
  activations are normalised with running statistics: subtract the mean, multiply by the reciprocal root of the
  variance plus a small constant, scale and shift. A dense projection is a matrix product. Over the extended reals
  these are the functions below of whole arrays, entry by entry.
-/
import Idealize.ShloMosaic.Lib.ValueIdx
import Idealize.ShloMosaic.PureOps.Ideal

noncomputable section

namespace Cert.Gcn

open Idealize.ShloMosaic Idealize.ShloMosaic.ValueIdx

/-- Aggregated messages plus the self-loop term plus the bias, clipped at zero: at (p, q) it is
    max (agg(p,q) + h(p,q) · d(p) + b(q)) 0. -/
def epilogue {n f : Nat} (agg h : (⟨2, ![n, f]⟩ : Shape).Idx → EReal) (d : (⟨1, ![n]⟩ : Shape).Idx → EReal)
    (b : (⟨1, ![f]⟩ : Shape).Idx → EReal) : (⟨2, ![n, f]⟩ : Shape).Idx → EReal :=
  fun i => max (agg i + h i * d (ix1 (i 0)) + b (ix1 (i 1))) (Ideal.ofBits .f32 0x00000000#32)

/-- Normalisation with running statistics: at (p, q) it is (v(p,q) − μ(q)) · rsqrt(σ²(q) + ε) · γ(q) + β(q), ε the
    single-precision number nearest 1e-5. -/
def normalise {n f : Nat} (v : (⟨2, ![n, f]⟩ : Shape).Idx → EReal) (mu var g be : (⟨1, ![f]⟩ : Shape).Idx → EReal) :
    (⟨2, ![n, f]⟩ : Shape).Idx → EReal :=
  fun i => (v i - mu (ix1 (i 1))) * Ideal.rsqrt (var (ix1 (i 1)) + Ideal.ofBits .f32 0x3727C5AC#32) * g (ix1 (i 1)) + be (ix1 (i 1))

/-- The matrix product: at (p, q) the sum over k of x(p,k) · w(k,q). -/
def project {n k f : Nat} (x : (⟨2, ![n, k]⟩ : Shape).Idx → EReal) (w : (⟨2, ![k, f]⟩ : Shape).Idx → EReal) :
    (⟨2, ![n, f]⟩ : Shape).Idx → EReal :=
  fun i => ∑ j : Fin k, x (ix2 (i 0) j) * w (ix2 j (i 1))

/-- The same epilogue with the self-loop coefficient presented as a column [n, 1] and the bias as a row [1, f]. -/
def epilogueCR {n f : Nat} (agg h : (⟨2, ![n, f]⟩ : Shape).Idx → EReal) (d : (⟨2, ![n, 1]⟩ : Shape).Idx → EReal)
    (b : (⟨2, ![1, f]⟩ : Shape).Idx → EReal) : (⟨2, ![n, f]⟩ : Shape).Idx → EReal :=
  fun i => max (agg i + h i * d (ix2 (i 0) (0 : Fin 1)) + b (ix2 (0 : Fin 1) (i 1))) (Ideal.ofBits .f32 0x00000000#32)

/-- The same normalisation with each per-feature vector presented as a row [1, f]. -/
def normaliseR {n f : Nat} (v : (⟨2, ![n, f]⟩ : Shape).Idx → EReal) (mu var g be : (⟨2, ![1, f]⟩ : Shape).Idx → EReal) :
    (⟨2, ![n, f]⟩ : Shape).Idx → EReal :=
  fun i => (v i - mu (ix2 (0 : Fin 1) (i 1))) * Ideal.rsqrt (var (ix2 (0 : Fin 1) (i 1)) + Ideal.ofBits .f32 0x3727C5AC#32)
    * g (ix2 (0 : Fin 1) (i 1)) + be (ix2 (0 : Fin 1) (i 1))

/-! ## A block of rows against the whole array

A kernel works on a block of rows at a time. Entry (r, q) of the block is entry E of the whole array; when each number
the body reads there is the corresponding number of the whole arrays, the body's value is the whole-array function at E. -/

theorem epilogueCR_block {n f B : Nat} (A H : (⟨2, ![n, f]⟩ : Shape).Idx → EReal) (D : (⟨2, ![n, 1]⟩ : Shape).Idx → EReal)
    (Bv : (⟨2, ![1, f]⟩ : Shape).Idx → EReal) (a h : (⟨2, ![B, f]⟩ : Shape).Idx → EReal) (d : (⟨2, ![B, 1]⟩ : Shape).Idx → EReal)
    (b : (⟨2, ![1, f]⟩ : Shape).Idx → EReal) (r : Fin B) (q : Fin f) (E : (⟨2, ![n, f]⟩ : Shape).Idx)
    (ha : a (ix2 r q) = A E) (hh : h (ix2 r q) = H E) (hd : d (ix2 r (0 : Fin 1)) = D (ix2 (E 0) (0 : Fin 1)))
    (hb : b (ix2 (0 : Fin 1) q) = Bv (ix2 (0 : Fin 1) (E 1))) :
    max (a (ix2 r q) + h (ix2 r q) * d (ix2 r (0 : Fin 1)) + b (ix2 (0 : Fin 1) q)) (Ideal.ofBits .f32 0x00000000#32)
      = epilogueCR A H D Bv E := by
  unfold epilogueCR
  rw [ha, hh, hd, hb]

theorem normaliseR_block {n f : Nat} (Vv : (⟨2, ![n, f]⟩ : Shape).Idx → EReal) (Mu Var G Be : (⟨2, ![1, f]⟩ : Shape).Idx → EReal)
    (v : EReal) (mu var g be : (⟨2, ![1, f]⟩ : Shape).Idx → EReal) (q : Fin f) (E : (⟨2, ![n, f]⟩ : Shape).Idx)
    (hv : v = Vv E) (hmu : mu (ix2 (0 : Fin 1) q) = Mu (ix2 (0 : Fin 1) (E 1))) (hvar : var (ix2 (0 : Fin 1) q) = Var (ix2 (0 : Fin 1) (E 1)))
    (hg : g (ix2 (0 : Fin 1) q) = G (ix2 (0 : Fin 1) (E 1))) (hbe : be (ix2 (0 : Fin 1) q) = Be (ix2 (0 : Fin 1) (E 1))) :
    (v - mu (ix2 (0 : Fin 1) q)) * Ideal.rsqrt (var (ix2 (0 : Fin 1) q) + Ideal.ofBits .f32 0x3727C5AC#32) * g (ix2 (0 : Fin 1) q)
        + be (ix2 (0 : Fin 1) q)
      = normaliseR Vv Mu Var G Be E := by
  unfold normaliseR
  rw [hv, hmu, hvar, hg, hbe]

theorem project_block {n k f B : Nat} (X : (⟨2, ![n, k]⟩ : Shape).Idx → EReal) (W : (⟨2, ![k, f]⟩ : Shape).Idx → EReal)
    (x : (⟨2, ![B, k]⟩ : Shape).Idx → EReal) (w : (⟨2, ![k, f]⟩ : Shape).Idx → EReal) (r : Fin B) (q : Fin f)
    (E : (⟨2, ![n, f]⟩ : Shape).Idx) (hx : ∀ j : Fin k, x (ix2 r j) = X (ix2 (E 0) j)) (hw : ∀ j : Fin k, w (ix2 j q) = W (ix2 j (E 1))) :
    ∑ j : Fin k, x (ix2 r j) * w (ix2 j q) = project X W E := by
  unfold project
  exact Finset.sum_congr rfl fun j _ => by rw [hx j, hw j]

end Cert.Gcn

end
-- ==== Proof.Payloads.lean ====
/-
  What each kernel body computes, entry by entry, from the blocks it loads.

  The two projection bodies multiply their row block by the whole weight matrix (rounding to a shorter format first,
  which over the extended reals changes nothing): entry (r, q) is the sum over k of x(r,k) · w(k,q). The two epilogue
  bodies are entrywise: the self-loop coefficient comes as a column [rows, 1] and each per-feature vector as a row
  [1, features], both spread over the block.
-/
import proofs.«124719_j53334903882347_2_alg».proof.Proof.Gen.KernelIdeal.Skeleton
import proofs.«124719_j53334903882347_2_alg».proof.Proof.LibPlainDot
import proofs.«124719_j53334903882347_2_alg».proof.Proof.LibColumnBroadcast
import proofs.«124719_j53334903882347_2_alg».proof.Proof.LibRowLayout
import proofs.«124719_j53334903882347_2_alg».proof.Proof.GcnSpec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The first projection's body at (r, q): the sum over the 512 input features. -/
theorem pay_project1 (x : Vec Ideal S5000x512 .f32) (w : Vec Ideal S512x32 .f32) (r : Fin 5000) (q : Fin 32) :
    k0_pay1 (F := Ideal) x w (ix2 r q) = ∑ k : Fin 512, x (ix2 r k) * w (ix2 k q) := by
  unfold k0_pay1
  exact Cert.Lib.matmul_zero_apply dot_S5000x512_S512x32_S5000x32_1_0_0_1_n_n_wf none _ _ r q

/-- The second projection's body at (r, q): the sum over the 32 hidden features. -/
theorem pay_project2 (x : Vec Ideal S10000x32 .f32) (w : Vec Ideal S32x32 .f32) (r : Fin 10000) (q : Fin 32) :
    k2_pay1 (F := Ideal) x w (ix2 r q) = ∑ k : Fin 32, x (ix2 r k) * w (ix2 k q) := by
  unfold k2_pay1
  rw [shapeCast_self]
  exact Cert.Lib.matmul_zero_apply dot_S10000x32_S32x32_S10000x32_1_0_0_1_n_n_wf none _ _ r q

/-- The last epilogue's body at (r, q). -/
theorem pay_epilogue2 (agg h : Vec Ideal S5000x32 .f32) (d : Vec Ideal S5000x1 .f32) (b : Vec Ideal S1x32 .f32) (r : Fin 5000) (q : Fin 32) :
    k3_pay1 (F := Ideal) agg h d b (ix2 r q)
      = max (agg (ix2 r q) + h (ix2 r q) * d (ix2 r (0 : Fin 1)) + b (ix2 (0 : Fin 1) q)) (Ideal.ofBits .f32 0x00000000#32) := by
  unfold k3_pay1
  simp only [shapeCast_self]
  show max (agg (ix2 r q) + h (ix2 r q) * broadcastTo S5000x32 d broadcasts_S5000x1_S5000x32 (ix2 r q)
      + broadcastTo S5000x32 b broadcasts_S1x32_S5000x32 (ix2 r q)) _ = _
  rw [Cert.Lib.broadcastTo_a1_ab_apply d broadcasts_S5000x1_S5000x32 r q, Cert.Lib.rowBroadcast_apply b broadcasts_S1x32_S5000x32 r q]
  rfl

/-- The first epilogue's body at (r, q): the clipped sum, then the normalisation with running statistics. -/
theorem pay_epilogue1 (agg h : Vec Ideal S5000x32 .f32) (d : Vec Ideal S5000x1 .f32) (b mu var g be : Vec Ideal S1x32 .f32)
    (r : Fin 5000) (q : Fin 32) :
    k1_pay1 (F := Ideal) agg h d b mu var g be (ix2 r q)
      = (max (agg (ix2 r q) + h (ix2 r q) * d (ix2 r (0 : Fin 1)) + b (ix2 (0 : Fin 1) q)) (Ideal.ofBits .f32 0x00000000#32)
            - mu (ix2 (0 : Fin 1) q))
          * Ideal.rsqrt (var (ix2 (0 : Fin 1) q) + Ideal.ofBits .f32 0x3727C5AC#32) * g (ix2 (0 : Fin 1) q)
          + be (ix2 (0 : Fin 1) q) := by
  unfold k1_pay1
  simp only [shapeCast_self]
  show (max (agg (ix2 r q) + h (ix2 r q) * broadcastTo S5000x32 d broadcasts_S5000x1_S5000x32 (ix2 r q)
        + broadcastTo S5000x32 b broadcasts_S1x32_S5000x32 (ix2 r q)) _
        - broadcastTo S5000x32 mu broadcasts_S1x32_S5000x32 (ix2 r q))
      * broadcastTo S5000x32 (rsqrt (addf var (broadcast S1x32 (Scalar.ofBits (F := Ideal) .f32 0x3727C5AC#32)))) broadcasts_S1x32_S5000x32 (ix2 r q)
      * broadcastTo S5000x32 g broadcasts_S1x32_S5000x32 (ix2 r q)
      + broadcastTo S5000x32 be broadcasts_S1x32_S5000x32 (ix2 r q) = _
  rw [Cert.Lib.broadcastTo_a1_ab_apply d broadcasts_S5000x1_S5000x32 r q, Cert.Lib.rowBroadcast_apply b broadcasts_S1x32_S5000x32 r q,
    Cert.Lib.rowBroadcast_apply mu broadcasts_S1x32_S5000x32 r q, Cert.Lib.rowBroadcast_apply g broadcasts_S1x32_S5000x32 r q,
    Cert.Lib.rowBroadcast_apply be broadcasts_S1x32_S5000x32 r q,
    Cert.Lib.rowBroadcast_apply (rsqrt (addf var (broadcast S1x32 (Scalar.ofBits (F := Ideal) .f32 0x3727C5AC#32)))) broadcasts_S1x32_S5000x32 r q]
  rfl

end Cert.KernelIdeal.Hand

end
-- ==== Proof.Region0.lean ====
/-
  The first projection region, as one function of the arrays it is entered with.

  The grid has twenty points; point t multiplies rows 5000·t … 5000·t + 4999 of the node features by the whole weight
  matrix and writes back the same rows of the result. The twenty row blocks tile the result, so after the region the
  result array is the matrix product of the two arrays, entry by entry.
-/
import proofs.«124719_j53334903882347_2_alg».proof.Proof.Gen.KernelIdeal.Frame
import proofs.«124719_j53334903882347_2_alg».proof.Proof.Payloads
import proofs.«124719_j53334903882347_2_alg».proof.Proof.GcnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps over the grid: the row-blocked input and the output move with the point, the weight matrix
    stays. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The result of the region as one function of the arrays at its entry: the matrix product. -/
def result0 (c : Dev nD) : Buf (Elt Ideal) ((c : Thread nD τ).loc main_v28) :=
  Cert.Gcn.project (n := 100000) (k := 512) (f := 32) (V c main_arg0) (V c main_arg2)

/-- What point t writes back is rows 5000·t … of the product. -/
theorem flushed0 (c : Dev nD) (t : Fin cfg0.N) :
    (dat0 V c).flushed 2 t = ((cfg0.win 2).blk t).view.read (Elt Ideal) (result0 V c) := by
  show (cfg0.win 2).cut (grid0.coords t) ((dat0 V c).after 2 t) = _
  rw [after0_2]
  unfold out0_2
  rw [View.canon_unit_zero zero_offsets0]
  simp only [View.ld_unit_zero (S := S5000x512) zero_offsets0, View.ld_unit_zero (S := S512x32) zero_offsets0]
  obtain ⟨e00, e01, e10, e11, e20, e21⟩ := index_maps0 t
  funext j
  obtain ⟨r, q, rfl⟩ : ∃ (r : Fin 5000) (q : Fin 32), j = ix2 r q := ⟨j 0, j 1, eq_ix2 j⟩
  refine (pay_project1 (iblk0 V c 0 t) (iblk0 V c 1 t) r q).trans ?_
  rw [View.read_apply]
  have hx : ∀ k : Fin 512, ((cfg0.win 0).blk t).view.emb (ix2 r k) = ix2 ((((cfg0.win 2).blk t).view.emb (ix2 r q)) 0) k := fun k => by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 512 + 1 * k.val = k.val; omega
  have hw : ∀ k : Fin 512, ((cfg0.win 1).blk t).view.emb (ix2 k q) = ix2 k ((((cfg0.win 2).blk t).view.emb (ix2 r q)) 1) := fun k => by
    funext a; apply Fin.ext
    match a with
    | ⟨0, _⟩ => show win0_1.index t (0 : Fin 2) * 512 + 1 * k.val = k.val; omega
    | ⟨1, _⟩ => show win0_1.index t (1 : Fin 2) * 32 + 1 * q.val = win0_2.index t (1 : Fin 2) * 32 + 1 * q.val; omega
  exact Cert.Gcn.project_block (n := 100000) (k := 512) (f := 32) (B := 5000) (V c main_arg0) (V c main_arg2) (iblk0 V c 0 t) (iblk0 V c 1 t) r q
    (((cfg0.win 2).blk t).view.emb (ix2 r q)) (fun k => congrArg (V c main_arg0) (hx k)) (fun k => congrArg (V c main_arg2) (hw k))

/-- An index of the result is in point t's block iff each coordinate is in the block's range on its axis. -/
theorem mem_block0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v28).slice (win0_2.rect t)).set ↔ _
  rw [View.set_slice_whole, Rect.mem_set_unit]
  exact Iff.rfl

/-- Row p of the result lies in the block of point p / 5000. -/
theorem cover0 (i : S100000x32.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 32 := (i 1).isLt
  let t : Fin cfg0.N := ⟨(i 0).val / 5000, by rw [hN]; omega⟩
  have ht : t.val = (i 0).val / 5000 := rfl
  obtain ⟨e00, e01, e10, e11, e20, e21⟩ := index_maps0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After the region the result array is the product of the two arrays it was entered with. -/
theorem final0 (c : Dev nD) : (dat0 V c).arrAt 2 cfg0.N = result0 V c :=
  (dat0 V c).arrAt_eq_of_cover 2 (result0 V c) (fun t _ => flushed0 V c t) (cover0)

end Cert.KernelIdeal.Hand

end
-- ==== Proof.Region1.lean ====
/-
  The first epilogue region (self loop, bias, clipping, then normalisation), as one function of the arrays it is
  entered with.

  The grid has twenty points; point t works on rows 5000·t … 5000·t + 4999 of the aggregated messages, of the projected
  features and of the self-loop column, always with the five whole per-feature rows (bias, scale, shift, mean, variance),
  and writes back the same rows of the result. The twenty row blocks tile the result, so after the region the result
  array is the normalisation of the layer's epilogue, entry by entry.
-/
import proofs.«124719_j53334903882347_2_alg».proof.Proof.Gen.KernelIdeal.Frame
import proofs.«124719_j53334903882347_2_alg».proof.Proof.Payloads
import proofs.«124719_j53334903882347_2_alg».proof.Proof.GcnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps over the grid: the three row-blocked inputs and the output move with the point, the five
    per-feature rows stay. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The result of the region as one function of the arrays at its entry. -/
def result1 (c : Dev nD) : Buf (Elt Ideal) ((c : Thread nD τ).loc main_v47) :=
  Cert.Gcn.normaliseR (n := 100000) (f := 32)
    (Cert.Gcn.epilogueCR (n := 100000) (f := 32) (V c main_v41) (V c main_v28) (V c main_v27) (V c main_v42))
    (V c main_v45) (V c main_v46) (V c main_v43) (V c main_v44)

set_option maxHeartbeats 4000000 in
/-- What point t writes back is rows 5000·t … of that function. -/
theorem flushed1 (c : Dev nD) (t : Fin cfg1.N) :
    (dat1 V c).flushed 8 t = ((cfg1.win 8).blk t).view.read (Elt Ideal) (result1 V c) := by
  show (cfg1.win 8).cut (grid1.coords t) ((dat1 V c).after 8 t) = _
  rw [after1_8]
  unfold out1_8
  rw [View.canon_unit_zero zero_offsets1]
  simp only [View.ld_unit_zero (S := S5000x32) zero_offsets1, View.ld_unit_zero (S := S5000x1) zero_offsets1,
    View.ld_unit_zero (S := S1x32) zero_offsets1]
  obtain ⟨e00, e01, e10, e11, e20, e21, e30, e31, e40, e41, e50, e51, e60, e61, e70, e71, e80, e81⟩ := index_maps1 t
  funext j
  obtain ⟨r, q, rfl⟩ : ∃ (r : Fin 5000) (q : Fin 32), j = ix2 r q := ⟨j 0, j 1, eq_ix2 j⟩
  refine (pay_epilogue1 (iblk1 V c 0 t) (iblk1 V c 1 t) (iblk1 V c 2 t) (iblk1 V c 3 t) (iblk1 V c 6 t) (iblk1 V c 7 t)
    (iblk1 V c 4 t) (iblk1 V c 5 t) r q).trans ?_
  rw [View.read_apply]
  have h0 : ((cfg1.win 0).blk t).view.emb (ix2 r q) = ((cfg1.win 8).blk t).view.emb (ix2 r q) := by
    funext a; apply Fin.ext
    match a with
    | ⟨0, _⟩ => show win1_0.index t (0 : Fin 2) * 5000 + 1 * r.val = win1_8.index t (0 : Fin 2) * 5000 + 1 * r.val; omega
    | ⟨1, _⟩ => show win1_0.index t (1 : Fin 2) * 32 + 1 * q.val = win1_8.index t (1 : Fin 2) * 32 + 1 * q.val; omega
  have h1 : ((cfg1.win 1).blk t).view.emb (ix2 r q) = ((cfg1.win 8).blk t).view.emb (ix2 r q) := by
    funext a; apply Fin.ext
    match a with
    | ⟨0, _⟩ => show win1_1.index t (0 : Fin 2) * 5000 + 1 * r.val = win1_8.index t (0 : Fin 2) * 5000 + 1 * r.val; omega
    | ⟨1, _⟩ => show win1_1.index t (1 : Fin 2) * 32 + 1 * q.val = win1_8.index t (1 : Fin 2) * 32 + 1 * q.val; omega
  have h2 : ((cfg1.win 2).blk t).view.emb (ix2 r (0 : Fin 1)) = ix2 ((((cfg1.win 8).blk t).view.emb (ix2 r q)) 0) (0 : Fin 1) := by
    funext a; apply Fin.ext
    match a with
    | ⟨0, _⟩ => show win1_2.index t (0 : Fin 2) * 5000 + 1 * r.val = win1_8.index t (0 : Fin 2) * 5000 + 1 * r.val; omega
    | ⟨1, _⟩ => show win1_2.index t (1 : Fin 2) * 1 + 1 * 0 = 0; omega
  have h3 : ((cfg1.win 3).blk t).view.emb (ix2 (0 : Fin 1) q) = ix2 (0 : Fin 1) ((((cfg1.win 8).blk t).view.emb (ix2 r q)) 1) := by
    funext a; apply Fin.ext
    match a with
    | ⟨0, _⟩ => show win1_3.index t (0 : Fin 2) * 1 + 1 * 0 = 0; omega
    | ⟨1, _⟩ => show win1_3.index t (1 : Fin 2) * 32 + 1 * q.val = win1_8.index t (1 : Fin 2) * 32 + 1 * q.val; omega
  have h4 : ((cfg1.win 4).blk t).view.emb (ix2 (0 : Fin 1) q) = ix2 (0 : Fin 1) ((((cfg1.win 8).blk t).view.emb (ix2 r q)) 1) := by
    funext a; apply Fin.ext
    match a with
    | ⟨0, _⟩ => show win1_4.index t (0 : Fin 2) * 1 + 1 * 0 = 0; omega
    | ⟨1, _⟩ => show win1_4.index t (1 : Fin 2) * 32 + 1 * q.val = win1_8.index t (1 : Fin 2) * 32 + 1 * q.val; omega
  have h5 : ((cfg1.win 5).blk t).view.emb (ix2 (0 : Fin 1) q) = ix2 (0 : Fin 1) ((((cfg1.win 8).blk t).view.emb (ix2 r q)) 1) := by
    funext a; apply Fin.ext
    match a with
    | ⟨0, _⟩ => show win1_5.index t (0 : Fin 2) * 1 + 1 * 0 = 0; omega
    | ⟨1, _⟩ => show win1_5.index t (1 : Fin 2) * 32 + 1 * q.val = win1_8.index t (1 : Fin 2) * 32 + 1 * q.val; omega
  have h6 : ((cfg1.win 6).blk t).view.emb (ix2 (0 : Fin 1) q) = ix2 (0 : Fin 1) ((((cfg1.win 8).blk t).view.emb (ix2 r q)) 1) := by
    funext a; apply Fin.ext
    match a with
    | ⟨0, _⟩ => show win1_6.index t (0 : Fin 2) * 1 + 1 * 0 = 0; omega
    | ⟨1, _⟩ => show win1_6.index t (1 : Fin 2) * 32 + 1 * q.val = win1_8.index t (1 : Fin 2) * 32 + 1 * q.val; omega
  have h7 : ((cfg1.win 7).blk t).view.emb (ix2 (0 : Fin 1) q) = ix2 (0 : Fin 1) ((((cfg1.win 8).blk t).view.emb (ix2 r q)) 1) := by
    funext a; apply Fin.ext
    match a with
    | ⟨0, _⟩ => show win1_7.index t (0 : Fin 2) * 1 + 1 * 0 = 0; omega
    | ⟨1, _⟩ => show win1_7.index t (1 : Fin 2) * 32 + 1 * q.val = win1_8.index t (1 : Fin 2) * 32 + 1 * q.val; omega
  exact Cert.Gcn.normaliseR_block (n := 100000) (f := 32)
    (Cert.Gcn.epilogueCR (n := 100000) (f := 32) (V c main_v41) (V c main_v28) (V c main_v27) (V c main_v42))
    (V c main_v45) (V c main_v46) (V c main_v43) (V c main_v44) _
    (iblk1 V c 6 t) (iblk1 V c 7 t) (iblk1 V c 4 t) (iblk1 V c 5 t) q (((cfg1.win 8).blk t).view.emb (ix2 r q))
    (Cert.Gcn.epilogueCR_block (n := 100000) (f := 32) (B := 5000) (V c main_v41) (V c main_v28) (V c main_v27) (V c main_v42)
      (iblk1 V c 0 t) (iblk1 V c 1 t) (iblk1 V c 2 t) (iblk1 V c 3 t) r q (((cfg1.win 8).blk t).view.emb (ix2 r q))
      (congrArg (V c main_v41) h0) (congrArg (V c main_v28) h1) (congrArg (V c main_v27) h2) (congrArg (V c main_v42) h3))
    (congrArg (V c main_v45) h6) (congrArg (V c main_v46) h7) (congrArg (V c main_v43) h4) (congrArg (V c main_v44) h5)

/-- An index of the result is in point t's block iff each coordinate is in the block's range on its axis. -/
theorem mem_block1 (t : Fin cfg1.N) (i : S100000x32.Idx) :
    i ∈ ((cfg1.win 8).blk t).view.set ↔ ∀ a : Fin 2, win1_8.index t a * S5000x32.size a ≤ (i a).val ∧ (i a).val < win1_8.index t a * S5000x32.size a + S5000x32.size a := by
  show i ∈ ((View.whole main_v47).slice (win1_8.rect t)).set ↔ _
  rw [View.set_slice_whole, Rect.mem_set_unit]
  exact Iff.rfl

/-- Row p of the result lies in the block of point p / 5000. -/
theorem cover1 (i : S100000x32.Idx) : ∃ t : Fin cfg1.N, (cfg1.win 8).flush t = true ∧ i ∈ ((cfg1.win 8).blk t).view.set := by
  have hN : cfg1.N = 20 := N_1
  have hi0 : (i 0).val < 100000 := (i 0).isLt
  have hi1 : (i 1).val < 32 := (i 1).isLt
  let t : Fin cfg1.N := ⟨(i 0).val / 5000, by rw [hN]; omega⟩
  have ht : t.val = (i 0).val / 5000 := rfl
  obtain ⟨e00, e01, e10, e11, e20, e21, e30, e31, e40, e41, e50, e51, e60, e61, e70, e71, e80, e81⟩ := index_maps1 t
  refine ⟨t, flush1_8 t, ?_⟩
  rw [mem_block1]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 32 ≤ (i 1).val ∧ (i 1).val < win1_8.index t (1 : Fin 2) * 32 + 32; omega

/-- After the region the result array is the normalised epilogue of the arrays it was entered with. -/
theorem final1 (c : Dev nD) : (dat1 V c).arrAt 8 cfg1.N = result1 V c :=
  (dat1 V c).arrAt_eq_of_cover 8 (result1 V c) (fun t _ => flushed1 V c t) (cover1)

end Cert.KernelIdeal.Hand

end
-- ==== Proof.Region2.lean ====
/-
  The second projection region, as one function of the arrays it is entered with.

  The grid has ten points; point t multiplies rows 10000·t … 10000·t + 9999 of the normalised activations by the whole
  weight matrix and writes back the same rows of the result. The ten row blocks tile the result, so after the region the
  result array is the matrix product of the two arrays, entry by entry.
-/
import proofs.«124719_j53334903882347_2_alg».proof.Proof.Gen.KernelIdeal.Frame
import proofs.«124719_j53334903882347_2_alg».proof.Proof.Payloads
import proofs.«124719_j53334903882347_2_alg».proof.Proof.GcnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The printed index maps over the grid: the row-blocked input and the output move with the point, the weight matrix
    stays. -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The result of the region as one function of the arrays at its entry: the matrix product. -/
def result2 (c : Dev nD) : Buf (Elt Ideal) ((c : Thread nD τ).loc main_v48) :=
  Cert.Gcn.project (n := 100000) (k := 32) (f := 32) (V c main_v47) (V c main_arg4)

/-- What point t writes back is rows 10000·t … of the product. -/
theorem flushed2 (c : Dev nD) (t : Fin cfg2.N) :
    (dat2 V c).flushed 2 t = ((cfg2.win 2).blk t).view.read (Elt Ideal) (result2 V c) := by
  show (cfg2.win 2).cut (grid2.coords t) ((dat2 V c).after 2 t) = _
  rw [after2_2]
  unfold out2_2
  rw [View.canon_unit_zero zero_offsets2]
  simp only [View.ld_unit_zero (S := S10000x32) zero_offsets2, View.ld_unit_zero (S := S32x32) zero_offsets2]
  obtain ⟨e00, e01, e10, e11, e20, e21⟩ := index_maps2 t
  funext j
  obtain ⟨r, q, rfl⟩ : ∃ (r : Fin 10000) (q : Fin 32), j = ix2 r q := ⟨j 0, j 1, eq_ix2 j⟩
  refine (pay_project2 (iblk2 V c 0 t) (iblk2 V c 1 t) r q).trans ?_
  rw [View.read_apply]
  have hx : ∀ k : Fin 32, ((cfg2.win 0).blk t).view.emb (ix2 r k) = ix2 ((((cfg2.win 2).blk t).view.emb (ix2 r q)) 0) k := fun k => by
    funext a; apply Fin.ext
    match a with
    | ⟨0, _⟩ => show win2_0.index t (0 : Fin 2) * 10000 + 1 * r.val = win2_2.index t (0 : Fin 2) * 10000 + 1 * r.val; omega
    | ⟨1, _⟩ => show win2_0.index t (1 : Fin 2) * 32 + 1 * k.val = k.val; omega
  have hw : ∀ k : Fin 32, ((cfg2.win 1).blk t).view.emb (ix2 k q) = ix2 k ((((cfg2.win 2).blk t).view.emb (ix2 r q)) 1) := fun k => by
    funext a; apply Fin.ext
    match a with
    | ⟨0, _⟩ => show win2_1.index t (0 : Fin 2) * 32 + 1 * k.val = k.val; omega
    | ⟨1, _⟩ => show win2_1.index t (1 : Fin 2) * 32 + 1 * q.val = win2_2.index t (1 : Fin 2) * 32 + 1 * q.val; omega
  exact Cert.Gcn.project_block (n := 100000) (k := 32) (f := 32) (B := 10000) (V c main_v47) (V c main_arg4) (iblk2 V c 0 t) (iblk2 V c 1 t) r q
    (((cfg2.win 2).blk t).view.emb (ix2 r q)) (fun k => congrArg (V c main_v47) (hx k)) (fun k => congrArg (V c main_arg4) (hw k))

/-- An index of the result is in point t's block iff each coordinate is in the block's range on its axis. -/
theorem mem_block2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v48).slice (win2_2.rect t)).set ↔ _
  rw [View.set_slice_whole, Rect.mem_set_unit]
  exact Iff.rfl

/-- Row p of the result lies in the block of point p / 10000. -/
theorem cover2 (i : S100000x32.Idx) : ∃ t : Fin cfg2.N, (cfg2.win 2).flush t = true ∧ i ∈ ((cfg2.win 2).blk t).view.set := by
  have hN : cfg2.N = 10 := N_2
  have hi0 : (i 0).val < 100000 := (i 0).isLt
  have hi1 : (i 1).val < 32 := (i 1).isLt
  let t : Fin cfg2.N := ⟨(i 0).val / 10000, by rw [hN]; omega⟩
  have ht : t.val = (i 0).val / 10000 := rfl
  obtain ⟨e00, e01, e10, e11, e20, e21⟩ := index_maps2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- After the region the result array is the product of the two arrays it was entered with. -/
theorem final2 (c : Dev nD) : (dat2 V c).arrAt 2 cfg2.N = result2 V c :=
  (dat2 V c).arrAt_eq_of_cover 2 (result2 V c) (fun t _ => flushed2 V c t) (cover2)

end Cert.KernelIdeal.Hand

end
-- ==== Proof.Region3.lean ====
/-
  The last epilogue region, as one function of the arrays it is entered with.

  The grid has twenty points; point t works on rows 5000·t … 5000·t + 4999 of the aggregated messages, of the projected
  features and of the self-loop column, always with the whole bias row, and writes back the same rows of the result.
  The twenty row blocks tile the result, so after the region the result array is the layer's epilogue of the four
  arrays, entry by entry.
-/
import proofs.«124719_j53334903882347_2_alg».proof.Proof.Gen.KernelIdeal.Frame
import proofs.«124719_j53334903882347_2_alg».proof.Proof.Payloads
import proofs.«124719_j53334903882347_2_alg».proof.Proof.GcnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The printed index maps over the grid: the three row-blocked inputs and the output move with the point, the bias row
    stays. -/
theorem index_maps3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The result of the region as one function of the arrays at its entry. -/
def result3 (c : Dev nD) : Buf (Elt Ideal) ((c : Thread nD τ).loc main_v63) :=
  Cert.Gcn.epilogueCR (n := 100000) (f := 32) (V c main_v61) (V c main_v48) (V c main_v27) (V c main_v62)

/-- What point t writes back is rows 5000·t … of that function. -/
theorem flushed3 (c : Dev nD) (t : Fin cfg3.N) :
    (dat3 V c).flushed 4 t = ((cfg3.win 4).blk t).view.read (Elt Ideal) (result3 V c) := by
  show (cfg3.win 4).cut (grid3.coords t) ((dat3 V c).after 4 t) = _
  rw [after3_4]
  unfold out3_4
  rw [View.canon_unit_zero zero_offsets3]
  simp only [View.ld_unit_zero (S := S5000x32) zero_offsets3, View.ld_unit_zero (S := S5000x1) zero_offsets3,
    View.ld_unit_zero (S := S1x32) zero_offsets3]
  obtain ⟨e00, e01, e10, e11, e20, e21, e30, e31, e40, e41⟩ := index_maps3 t
  funext j
  obtain ⟨r, q, rfl⟩ : ∃ (r : Fin 5000) (q : Fin 32), j = ix2 r q := ⟨j 0, j 1, eq_ix2 j⟩
  refine (pay_epilogue2 (iblk3 V c 0 t) (iblk3 V c 1 t) (iblk3 V c 2 t) (iblk3 V c 3 t) r q).trans ?_
  rw [View.read_apply]
  have h0 : ((cfg3.win 0).blk t).view.emb (ix2 r q) = ((cfg3.win 4).blk t).view.emb (ix2 r q) := by
    funext a; apply Fin.ext
    match a with
    | ⟨0, _⟩ => show win3_0.index t (0 : Fin 2) * 5000 + 1 * r.val = win3_4.index t (0 : Fin 2) * 5000 + 1 * r.val; omega
    | ⟨1, _⟩ => show win3_0.index t (1 : Fin 2) * 32 + 1 * q.val = win3_4.index t (1 : Fin 2) * 32 + 1 * q.val; omega
  have h1 : ((cfg3.win 1).blk t).view.emb (ix2 r q) = ((cfg3.win 4).blk t).view.emb (ix2 r q) := by
    funext a; apply Fin.ext
    match a with
    | ⟨0, _⟩ => show win3_1.index t (0 : Fin 2) * 5000 + 1 * r.val = win3_4.index t (0 : Fin 2) * 5000 + 1 * r.val; omega
    | ⟨1, _⟩ => show win3_1.index t (1 : Fin 2) * 32 + 1 * q.val = win3_4.index t (1 : Fin 2) * 32 + 1 * q.val; omega
  have h2 : ((cfg3.win 2).blk t).view.emb (ix2 r (0 : Fin 1)) = ix2 ((((cfg3.win 4).blk t).view.emb (ix2 r q)) 0) (0 : Fin 1) := by
    funext a; apply Fin.ext
    match a with
    | ⟨0, _⟩ => show win3_2.index t (0 : Fin 2) * 5000 + 1 * r.val = win3_4.index t (0 : Fin 2) * 5000 + 1 * r.val; omega
    | ⟨1, _⟩ => show win3_2.index t (1 : Fin 2) * 1 + 1 * 0 = 0; omega
  have h3 : ((cfg3.win 3).blk t).view.emb (ix2 (0 : Fin 1) q) = ix2 (0 : Fin 1) ((((cfg3.win 4).blk t).view.emb (ix2 r q)) 1) := by
    funext a; apply Fin.ext
    match a with
    | ⟨0, _⟩ => show win3_3.index t (0 : Fin 2) * 1 + 1 * 0 = 0; omega
    | ⟨1, _⟩ => show win3_3.index t (1 : Fin 2) * 32 + 1 * q.val = win3_4.index t (1 : Fin 2) * 32 + 1 * q.val; omega
  exact Cert.Gcn.epilogueCR_block (n := 100000) (f := 32) (B := 5000) (V c main_v61) (V c main_v48) (V c main_v27) (V c main_v62)
    (iblk3 V c 0 t) (iblk3 V c 1 t) (iblk3 V c 2 t) (iblk3 V c 3 t) r q (((cfg3.win 4).blk t).view.emb (ix2 r q))
    (congrArg (V c main_v61) h0) (congrArg (V c main_v48) h1) (congrArg (V c main_v27) h2) (congrArg (V c main_v62) h3)

/-- An index of the result is in point t's block iff each coordinate is in the block's range on its axis. -/
theorem mem_block3 (t : Fin cfg3.N) (i : S100000x32.Idx) :
    i ∈ ((cfg3.win 4).blk t).view.set ↔ ∀ a : Fin 2, win3_4.index t a * S5000x32.size a ≤ (i a).val ∧ (i a).val < win3_4.index t a * S5000x32.size a + S5000x32.size a := by
  show i ∈ ((View.whole main_v63).slice (win3_4.rect t)).set ↔ _
  rw [View.set_slice_whole, Rect.mem_set_unit]
  exact Iff.rfl

/-- Row p of the result lies in the block of point p / 5000. -/
theorem cover3 (i : S100000x32.Idx) : ∃ t : Fin cfg3.N, (cfg3.win 4).flush t = true ∧ i ∈ ((cfg3.win 4).blk t).view.set := by
  have hN : cfg3.N = 20 := N_3
  have hi0 : (i 0).val < 100000 := (i 0).isLt
  have hi1 : (i 1).val < 32 := (i 1).isLt
  let t : Fin cfg3.N := ⟨(i 0).val / 5000, by rw [hN]; omega⟩
  have ht : t.val = (i 0).val / 5000 := rfl
  obtain ⟨e00, e01, e10, e11, e20, e21, e30, e31, e40, e41⟩ := index_maps3 t
  refine ⟨t, flush3_4 t, ?_⟩
  rw [mem_block3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 32 ≤ (i 1).val ∧ (i 1).val < win3_4.index t (1 : Fin 2) * 32 + 32; omega

/-- After the region the result array is the epilogue of the four arrays it was entered with. -/
theorem final3 (c : Dev nD) : (dat3 V c).arrAt 4 cfg3.N = result3 V c :=
  (dat3 V c).arrAt_eq_of_cover 4 (result3 V c) (fun t _ => flushed3 V c t) (cover3)

end Cert.KernelIdeal.Hand

end
-- ==== Proof.RefStages.lean ====
/-
  The reference program read as the layer mathematics.

  The reference is two graph-convolution layers. Each projects the node features (a matrix product), gathers the
  projected rows by source node, scales each by the edge coefficient, accumulates them by destination node, adds the
  self-loop term and the bias; both layers are clipped at zero, and the first is normalised with running statistics
  before the second. The gather–scale–accumulate step is kept whole as one function of the projected features and of
  the edge list: both programs apply the same host operations there, so it is never opened. Every other stage is read
  entry by entry into the functions of the specification.
-/
import proofs.«124719_j53334903882347_2_alg».proof.Proof.Gen.ReferenceIdeal.Read
import proofs.«124719_j53334903882347_2_alg».proof.Proof.GcnSpec
import proofs.«124719_j53334903882347_2_alg».proof.Proof.LibPlainDot
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.Read
open Idealize.ShloMosaic Idealize.ShloMosaic.ValueIdx

/-- Gather the rows of h by source node, scale each by its edge's coefficient, accumulate them by destination node
    into zeros: the message passing of one layer, as the host operations compute it from h and the edge list. -/
def aggregate (h : (⟨S100000x32, .f32⟩ : BufTy).Contents (Elt Ideal)) (x1 : (⟨S2x1600000, .i32⟩ : BufTy).Contents (Elt Ideal)) : (⟨S100000x32, .f32⟩ : BufTy).Contents (Elt Ideal) :=
  Host.scatterAdd (F := Ideal) (φ := .f32) scatter_S100000x32_S1600000x1_S1600000x32_1_0_0_1 (val_main_v37 (F := Ideal)) (val_main_v38 (F := Ideal) x1)
    (mulf (F := Ideal) (φ := .f32) (Host.gather (α := Ideal .f32) gather_S100000x32_S1600000x1_S1600000x32_1_0_n_n_0_1_132 h (val_main_v32 (F := Ideal) x1))
      (val_main_v35 (F := Ideal) x1))

variable (x0 : (⟨S100000x512, .f32⟩ : BufTy).Contents (Elt Ideal)) (x1 : (⟨S2x1600000, .i32⟩ : BufTy).Contents (Elt Ideal)) (x2 : (⟨S512x32, .f32⟩ : BufTy).Contents (Elt Ideal))
  (x4 : (⟨S32x32, .f32⟩ : BufTy).Contents (Elt Ideal)) (x3 x5 x6 x7 x8 x9 : (⟨S32, .f32⟩ : BufTy).Contents (Elt Ideal))

/-- The first layer's aggregated messages. -/
theorem aggregate_layer1 : val_main_v39 (F := Ideal) x0 x1 x2 = aggregate (val_main_v4 (F := Ideal) x0 x2) x1 := rfl

/-- The second layer's aggregated messages: the same operations on the same edge list. -/
theorem aggregate_layer2 : val_main_v99 (F := Ideal) x0 x1 x2 x3 x4 x6 x7 x8 x9
    = aggregate (val_main_v64 (F := Ideal) x0 x1 x2 x3 x4 x6 x7 x8 x9) x1 := rfl

/-- The second layer recomputes the squared inverse root degrees from the same edge list. -/
theorem selfloop_layer2 : val_main_v100 (F := Ideal) x1 = val_main_v40 (F := Ideal) x1 := rfl

/-- The first projection is the matrix product. -/
theorem project_layer1 : val_main_v4 (F := Ideal) x0 x2 = Cert.Gcn.project (n := 100000) (k := 512) (f := 32) x0 x2 := by
  funext i
  obtain ⟨p, q, rfl⟩ : ∃ (p : Fin 100000) (q : Fin 32), i = ix2 p q := ⟨i 0, i 1, eq_ix2 i⟩
  unfold val_main_v4
  simp only [Host.dotGeneral]
  exact Cert.Lib.dotGeneral_plain_apply dot_S100000x512_S512x32_S100000x32_1_0_0_1_n_n_wf none _ x0 x2 p q

/-- The first layer after self loop, bias and clipping. -/
theorem epilogue_layer1 : val_main_v48 (F := Ideal) x0 x1 x2 x3
    = Cert.Gcn.epilogue (n := 100000) (f := 32) (val_main_v39 (F := Ideal) x0 x1 x2) (val_main_v4 (F := Ideal) x0 x2)
        (val_main_v40 (F := Ideal) x1) x3 := by
  funext i
  rw [val_main_v48_apply, val_main_v47_apply, val_main_v44_apply, val_main_v43_apply, val_main_v46_apply, val_main_v45_apply,
    val_main_v42_apply, val_main_v41_apply, val_main_call0_v0_apply, val_main_call0_cst_apply]
  have e1 : idx_main_v41 (idx_main_v42 i) = ix1 (i 0) := funext fun a => Fin.ext (by match a with | ⟨0, _⟩ => rfl)
  have e2 : idx_main_v45 (idx_main_v46 i) = ix1 (i 1) := funext fun a => Fin.ext (by match a with | ⟨0, _⟩ => rfl)
  rw [e1, e2]
  rfl

/-- The normalisation between the layers. -/
theorem normalise_layer1 : val_main_v63 (F := Ideal) x0 x1 x2 x3 x6 x7 x8 x9
    = Cert.Gcn.normalise (n := 100000) (f := 32) (val_main_v48 (F := Ideal) x0 x1 x2 x3) x8 x9 x6 x7 := by
  funext i
  rw [val_main_v63_apply, val_main_v60_apply, val_main_v57_apply, val_main_v51_apply, val_main_v50_apply, val_main_v49_apply,
    val_main_v56_apply, val_main_v55_apply, val_main_v54_apply, val_main_v53_apply, val_main_v52_apply, val_main_cst_8_apply,
    val_main_v59_apply, val_main_v58_apply, val_main_v62_apply, val_main_v61_apply]
  have e1 : idx_main_v49 (idx_main_v50 i) = ix1 (i 1) := funext fun a => Fin.ext (by match a with | ⟨0, _⟩ => rfl)
  have e2 : idx_main_v55 (idx_main_v56 i) = ix1 (i 1) := funext fun a => Fin.ext (by match a with | ⟨0, _⟩ => rfl)
  have e3 : idx_main_v58 (idx_main_v59 i) = ix1 (i 1) := funext fun a => Fin.ext (by match a with | ⟨0, _⟩ => rfl)
  have e4 : idx_main_v61 (idx_main_v62 i) = ix1 (i 1) := funext fun a => Fin.ext (by match a with | ⟨0, _⟩ => rfl)
  rw [e1, e2, e3, e4]
  rfl

/-- The second projection is the matrix product. -/
theorem project_layer2 : val_main_v64 (F := Ideal) x0 x1 x2 x3 x4 x6 x7 x8 x9
    = Cert.Gcn.project (n := 100000) (k := 32) (f := 32) (val_main_v63 (F := Ideal) x0 x1 x2 x3 x6 x7 x8 x9) x4 := by
  funext i
  obtain ⟨p, q, rfl⟩ : ∃ (p : Fin 100000) (q : Fin 32), i = ix2 p q := ⟨i 0, i 1, eq_ix2 i⟩
  unfold val_main_v64
  simp only [Host.dotGeneral]
  exact Cert.Lib.dotGeneral_plain_apply dot_S100000x32_S32x32_S100000x32_1_0_0_1_n_n_wf none _ _ x4 p q

/-- The second layer after self loop, bias and clipping: the program's result. -/
theorem epilogue_layer2 : val_main_v108 (F := Ideal) x0 x1 x2 x3 x4 x5 x6 x7 x8 x9
    = Cert.Gcn.epilogue (n := 100000) (f := 32) (val_main_v99 (F := Ideal) x0 x1 x2 x3 x4 x6 x7 x8 x9)
        (val_main_v64 (F := Ideal) x0 x1 x2 x3 x4 x6 x7 x8 x9) (val_main_v100 (F := Ideal) x1) x5 := by
  funext i
  rw [val_main_v108_apply, val_main_v107_apply, val_main_v104_apply, val_main_v103_apply, val_main_v106_apply, val_main_v105_apply,
    val_main_v102_apply, val_main_v101_apply, val_main_call1_v0_apply, val_main_call1_cst_apply]
  have e1 : idx_main_v101 (idx_main_v102 i) = ix1 (i 0) := funext fun a => Fin.ext (by match a with | ⟨0, _⟩ => rfl)
  have e2 : idx_main_v105 (idx_main_v106 i) = ix1 (i 1) := funext fun a => Fin.ext (by match a with | ⟨0, _⟩ => rfl)
  rw [e1, e2]
  rfl

/-- THE SPECIFICATION: the two layers as one function of the ten argument arrays. -/
def gcn : (⟨S100000x32, .f32⟩ : BufTy).Contents (Elt Ideal) :=
  let d := val_main_v40 (F := Ideal) x1
  let h1 := Cert.Gcn.project (n := 100000) (k := 512) (f := 32) x0 x2
  let z1 := Cert.Gcn.normalise (n := 100000) (f := 32) (Cert.Gcn.epilogue (n := 100000) (f := 32) (aggregate h1 x1) h1 d x3) x8 x9 x6 x7
  let h2 := Cert.Gcn.project (n := 100000) (k := 32) (f := 32) z1 x4
  Cert.Gcn.epilogue (n := 100000) (f := 32) (aggregate h2 x1) h2 d x5

/-- The reference's result is the specification. -/
theorem reference_eq_gcn : val_main_v108 (F := Ideal) x0 x1 x2 x3 x4 x5 x6 x7 x8 x9 = gcn x0 x1 x2 x4 x3 x5 x6 x7 x8 x9 := by
  rw [epilogue_layer2, aggregate_layer2, selfloop_layer2, project_layer2, normalise_layer1, epilogue_layer1, aggregate_layer1,
    project_layer1]
  rfl

end Cert.ReferenceIdeal.Hand

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.GcnLayout.lean ====
/-
  A vector stood up as a column, or laid as a row, carries the same numbers: the column and row forms of the layer's
  epilogue and normalisation are the vector forms.
-/
import proofs.«124719_j53334903882347_2_alg».proof.Proof.GcnSpec
import proofs.«124719_j53334903882347_2_alg».proof.Proof.LibColumnCast
import proofs.«124719_j53334903882347_2_alg».proof.Proof.LibRowLayout

noncomputable section

namespace Cert.Gcn

open Idealize.ShloMosaic Idealize.ShloMosaic.ValueIdx

/-- The epilogue over a column cast of d and a row cast of b is the epilogue over d and b. -/
theorem epilogueCR_cast {n f : Nat} (agg h : (⟨2, ![n, f]⟩ : Shape).Idx → EReal) (d : (⟨1, ![n]⟩ : Shape).Idx → EReal)
    (b : (⟨1, ![f]⟩ : Shape).Idx → EReal) (hd : (⟨1, ![n]⟩ : Shape).ShapeCasts ⟨2, ![n, 1]⟩)
    (hb : (⟨1, ![f]⟩ : Shape).ShapeCasts ⟨2, ![1, f]⟩) :
    epilogueCR agg h (shapeCast ⟨2, ![n, 1]⟩ d hd) (shapeCast ⟨2, ![1, f]⟩ b hb) = epilogue agg h d b := by
  funext i
  unfold epilogueCR epilogue
  rw [Cert.Lib.shapeCast_a_a1_apply d hd (i 0) 0, Cert.Lib.vecToRow_apply b hb (i 1)]

/-- The normalisation over row casts of the four vectors is the normalisation over the vectors. -/
theorem normaliseR_cast {n f : Nat} (v : (⟨2, ![n, f]⟩ : Shape).Idx → EReal) (mu var g be : (⟨1, ![f]⟩ : Shape).Idx → EReal)
    (hb : (⟨1, ![f]⟩ : Shape).ShapeCasts ⟨2, ![1, f]⟩) :
    normaliseR v (shapeCast ⟨2, ![1, f]⟩ mu hb) (shapeCast ⟨2, ![1, f]⟩ var hb) (shapeCast ⟨2, ![1, f]⟩ g hb)
      (shapeCast ⟨2, ![1, f]⟩ be hb) = normalise v mu var g be := by
  funext i
  unfold normaliseR normalise
  rw [Cert.Lib.vecToRow_apply mu hb (i 1), Cert.Lib.vecToRow_apply var hb (i 1), Cert.Lib.vecToRow_apply g hb (i 1),
    Cert.Lib.vecToRow_apply be hb (i 1)]

end Cert.Gcn

end
-- ==== Proof.HostEarly.lean ====
/-
  The host operations before the first region, read at the buffers the rest of the program uses: the source and
  destination node of every edge, the edge coefficient, and the column of squared inverse root degrees. Both programs
  compute them from the edge list by the same operations, so each is the reference's stage of the same name.
-/
import proofs.«124719_j53334903882347_2_alg».proof.Proof.Gen.KernelIdeal.Frame
import proofs.«124719_j53334903882347_2_alg».proof.Proof.Region0
import proofs.«124719_j53334903882347_2_alg».proof.Proof.Region1
import proofs.«124719_j53334903882347_2_alg».proof.Proof.Region2
import proofs.«124719_j53334903882347_2_alg».proof.Proof.Region3
import proofs.«124719_j53334903882347_2_alg».proof.Proof.RefStages
import proofs.«124719_j53334903882347_2_alg».proof.Proof.GcnLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The edges' source nodes. -/
theorem early_src : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results_simp
  rfl

/-- The edges' destination nodes. -/
theorem early_dst : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  rfl

/-- The edge coefficient: the product of the inverse root degrees of an edge's two ends. -/
theorem early_coef : W1 m ρ c (Proc.devRef .tc main_v25)
    = Cert.ReferenceIdeal.Read.val_main_v26 (F := Ideal) (m ((c : Thread nD τ).loc main_arg1)) := by
  show StableHlo.after hostOps0 (W0 m ρ c) (Proc.devRef .tc main_v25) = _
  after_results_simp
  rfl

/-- The self-loop coefficient, stood up as a column. -/
theorem early_selfloop : W1 m ρ c (Proc.devRef .tc main_v27)
    = shapeCast S100000x1 (Cert.ReferenceIdeal.Read.val_main_v40 (F := Ideal) (m ((c : Thread nD τ).loc main_arg1))) shapeCasts_S100000_S100000x1 := by
  show StableHlo.after hostOps0 (W0 m ρ c) (Proc.devRef .tc main_v27) = _
  after_results_simp
  rfl

end Cert.KernelIdeal.Hand

end
-- ==== Proof.HostChain.lean ====
/-
  The idealized kernel's result, boundary by boundary, is the specification.

  Between the launch and the return the buffers pass seven boundaries: after the first stretch of host operations, after
  the first projection, after the second stretch, after the first epilogue, after the second projection, after the third
  stretch, after the last epilogue. A host stretch leaves a buffer it does not write as it found it; a region leaves a
  buffer that is none of its arrays as it found it, and an input array too. Walking these back, every array a region or a
  message-passing step reads is one of: an argument, an early edge quantity, or the result of the region before — and the
  result buffer ends at the specification of the ten arguments.
-/
import proofs.«124719_j53334903882347_2_alg».proof.Proof.Gen.KernelIdeal.Frame
import proofs.«124719_j53334903882347_2_alg».proof.Proof.Region0
import proofs.«124719_j53334903882347_2_alg».proof.Proof.Region1
import proofs.«124719_j53334903882347_2_alg».proof.Proof.Region2
import proofs.«124719_j53334903882347_2_alg».proof.Proof.Region3
import proofs.«124719_j53334903882347_2_alg».proof.Proof.RefStages
import proofs.«124719_j53334903882347_2_alg».proof.Proof.GcnLayout
import proofs.«124719_j53334903882347_2_alg».proof.Proof.HostEarly
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-! ## The first projection -/

theorem entry0_x : V1 m ρ c main_arg0 = (m ((c : Thread nD τ).loc main_arg0)) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg0) = W0 m ρ c (Proc.devRef .tc main_arg0))
theorem entry0_w : V1 m ρ c main_arg2 = (m ((c : Thread nD τ).loc main_arg2)) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg2) = W0 m ρ c (Proc.devRef .tc main_arg2))

/-- The projected features of the first layer. -/
def h1 : Buf (Elt Ideal) ((c : Thread nD τ).loc main_v28) :=
  Cert.Gcn.project (n := 100000) (k := 512) (f := 32) (m ((c : Thread nD τ).loc main_arg0)) (m ((c : Thread nD τ).loc main_arg2))

theorem after0_h : W2 m ρ c (Proc.devRef .tc main_v28) = h1 m c := by
  refine (W2_arr m ρ c 2).trans ((final0 (V1 m ρ) c).trans ?_)
  unfold result0 h1
  rw [entry0_x m ρ c, entry0_w m ρ c]

/-! ## The second stretch: the first layer's messages and the per-feature rows -/

theorem at2_src : W2 m ρ c (Proc.devRef .tc main_v1) = Cert.ReferenceIdeal.Read.val_main_v1 (F := Ideal) (m ((c : Thread nD τ).loc main_arg1)) :=
  (W2_of_ne m ρ c main_v1 (by decide)).trans (early_src m ρ c)
theorem at2_dst : W2 m ρ c (Proc.devRef .tc main_v3) = Cert.ReferenceIdeal.Read.val_main_v3 (F := Ideal) (m ((c : Thread nD τ).loc main_arg1)) :=
  (W2_of_ne m ρ c main_v3 (by decide)).trans (early_dst m ρ c)
theorem at2_coef : W2 m ρ c (Proc.devRef .tc main_v25) = Cert.ReferenceIdeal.Read.val_main_v26 (F := Ideal) (m ((c : Thread nD τ).loc main_arg1)) :=
  (W2_of_ne m ρ c main_v25 (by decide)).trans (early_coef m ρ c)
theorem at2_selfloop : W2 m ρ c (Proc.devRef .tc main_v27) = shapeCast S100000x1 (Cert.ReferenceIdeal.Read.val_main_v40 (F := Ideal) (m ((c : Thread nD τ).loc main_arg1))) shapeCasts_S100000_S100000x1 :=
  (W2_of_ne m ρ c main_v27 (by decide)).trans (early_selfloop m ρ c)
theorem at2_arg3 : W2 m ρ c (Proc.devRef .tc main_arg3) = (m ((c : Thread nD τ).loc main_arg3)) :=
  (W2_of_ne m ρ c main_arg3 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg3) = W0 m ρ c (Proc.devRef .tc main_arg3))
theorem at2_arg6 : W2 m ρ c (Proc.devRef .tc main_arg6) = (m ((c : Thread nD τ).loc main_arg6)) :=
  (W2_of_ne m ρ c main_arg6 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg6) = W0 m ρ c (Proc.devRef .tc main_arg6))
theorem at2_arg7 : W2 m ρ c (Proc.devRef .tc main_arg7) = (m ((c : Thread nD τ).loc main_arg7)) :=
  (W2_of_ne m ρ c main_arg7 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg7) = W0 m ρ c (Proc.devRef .tc main_arg7))
theorem at2_arg8 : W2 m ρ c (Proc.devRef .tc main_arg8) = (m ((c : Thread nD τ).loc main_arg8)) :=
  (W2_of_ne m ρ c main_arg8 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg8) = W0 m ρ c (Proc.devRef .tc main_arg8))
theorem at2_arg9 : W2 m ρ c (Proc.devRef .tc main_arg9) = (m ((c : Thread nD τ).loc main_arg9)) :=
  (W2_of_ne m ρ c main_arg9 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg9) = W0 m ρ c (Proc.devRef .tc main_arg9))

set_option maxHeartbeats 2000000 in
/-- The first layer's aggregated messages: the message passing of the projected features. -/
theorem entry1_agg : V3 m ρ c main_v41 = Cert.ReferenceIdeal.Hand.aggregate (h1 m c) (m ((c : Thread nD τ).loc main_arg1)) := by
  show StableHlo.after hostOps1 (W2 m ρ c) (Proc.devRef .tc main_v41) = _
  after_results_simp
  rw [at2_src m ρ c, at2_dst m ρ c, at2_coef m ρ c, after0_h m ρ c]
  rfl

theorem entry1_h : V3 m ρ c main_v28 = h1 m c :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_v28) = W2 m ρ c (Proc.devRef .tc main_v28)).trans (after0_h m ρ c)
theorem entry1_selfloop : V3 m ρ c main_v27 = shapeCast S100000x1 (Cert.ReferenceIdeal.Read.val_main_v40 (F := Ideal) (m ((c : Thread nD τ).loc main_arg1))) shapeCasts_S100000_S100000x1 :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_v27) = W2 m ρ c (Proc.devRef .tc main_v27)).trans (at2_selfloop m ρ c)
theorem entry1_bias : V3 m ρ c main_v42 = shapeCast S1x32 (m ((c : Thread nD τ).loc main_arg3)) shapeCasts_S32_S1x32 := by
  show StableHlo.after hostOps1 (W2 m ρ c) (Proc.devRef .tc main_v42) = _
  after_results_simp
  rw [at2_arg3 m ρ c]
  rfl
theorem entry1_scale : V3 m ρ c main_v43 = shapeCast S1x32 (m ((c : Thread nD τ).loc main_arg6)) shapeCasts_S32_S1x32 := by
  show StableHlo.after hostOps1 (W2 m ρ c) (Proc.devRef .tc main_v43) = _
  after_results_simp
  rw [at2_arg6 m ρ c]
  rfl
theorem entry1_shift : V3 m ρ c main_v44 = shapeCast S1x32 (m ((c : Thread nD τ).loc main_arg7)) shapeCasts_S32_S1x32 := by
  show StableHlo.after hostOps1 (W2 m ρ c) (Proc.devRef .tc main_v44) = _
  after_results_simp
  rw [at2_arg7 m ρ c]
  rfl
theorem entry1_mean : V3 m ρ c main_v45 = shapeCast S1x32 (m ((c : Thread nD τ).loc main_arg8)) shapeCasts_S32_S1x32 := by
  show StableHlo.after hostOps1 (W2 m ρ c) (Proc.devRef .tc main_v45) = _
  after_results_simp
  rw [at2_arg8 m ρ c]
  rfl
theorem entry1_var : V3 m ρ c main_v46 = shapeCast S1x32 (m ((c : Thread nD τ).loc main_arg9)) shapeCasts_S32_S1x32 := by
  show StableHlo.after hostOps1 (W2 m ρ c) (Proc.devRef .tc main_v46) = _
  after_results_simp
  rw [at2_arg9 m ρ c]
  rfl

/-! ## The first epilogue -/

/-- The normalised activations of the first layer. -/
def z1 : Buf (Elt Ideal) ((c : Thread nD τ).loc main_v47) :=
  Cert.Gcn.normalise (n := 100000) (f := 32)
    (Cert.Gcn.epilogue (n := 100000) (f := 32) (Cert.ReferenceIdeal.Hand.aggregate (h1 m c) (m ((c : Thread nD τ).loc main_arg1))) (h1 m c) (Cert.ReferenceIdeal.Read.val_main_v40 (F := Ideal) (m ((c : Thread nD τ).loc main_arg1))) (m ((c : Thread nD τ).loc main_arg3)))
    (m ((c : Thread nD τ).loc main_arg8)) (m ((c : Thread nD τ).loc main_arg9)) (m ((c : Thread nD τ).loc main_arg6)) (m ((c : Thread nD τ).loc main_arg7))

theorem after1_z : W4 m ρ c (Proc.devRef .tc main_v47) = z1 m c := by
  refine (W4_arr m ρ c 8).trans ((final1 (V3 m ρ) c).trans ?_)
  unfold result1 z1
  rw [entry1_agg m ρ c, entry1_h m ρ c, entry1_selfloop m ρ c, entry1_bias m ρ c, entry1_scale m ρ c, entry1_shift m ρ c,
    entry1_mean m ρ c, entry1_var m ρ c]
  exact (congrArg (fun v => Cert.Gcn.normaliseR (n := 100000) (f := 32) v _ _ _ _)
      (Cert.Gcn.epilogueCR_cast (n := 100000) (f := 32) _ _ _ _ shapeCasts_S100000_S100000x1 shapeCasts_S32_S1x32)).trans
    (Cert.Gcn.normaliseR_cast (n := 100000) (f := 32) _ _ _ _ _ shapeCasts_S32_S1x32)

/-! ## The second projection -/

theorem entry2_w : V4 m ρ c main_arg4 = (m ((c : Thread nD τ).loc main_arg4)) :=
  (W4_of_ne m ρ c main_arg4 (by decide)).trans ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg4) = W2 m ρ c (Proc.devRef .tc main_arg4)).trans
    ((W2_of_ne m ρ c main_arg4 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg4) = W0 m ρ c (Proc.devRef .tc main_arg4))))

/-- The projected features of the second layer. -/
def h2 : Buf (Elt Ideal) ((c : Thread nD τ).loc main_v48) :=
  Cert.Gcn.project (n := 100000) (k := 32) (f := 32) (z1 m c) (m ((c : Thread nD τ).loc main_arg4))

theorem after2_h : W5 m ρ c (Proc.devRef .tc main_v48) = h2 m c := by
  refine (W5_arr m ρ c 2).trans ((final2 (V4 m ρ) c).trans ?_)
  unfold result2 h2
  rw [show V4 m ρ c main_v47 = z1 m c from after1_z m ρ c, entry2_w m ρ c]

/-! ## The third stretch: the second layer's messages and its bias row -/

theorem at5_src : W5 m ρ c (Proc.devRef .tc main_v1) = Cert.ReferenceIdeal.Read.val_main_v1 (F := Ideal) (m ((c : Thread nD τ).loc main_arg1)) :=
  (W5_of_ne m ρ c main_v1 (by decide)).trans ((W4_of_ne m ρ c main_v1 (by decide)).trans
    ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_v1) = W2 m ρ c (Proc.devRef .tc main_v1)).trans (at2_src m ρ c)))
theorem at5_dst : W5 m ρ c (Proc.devRef .tc main_v3) = Cert.ReferenceIdeal.Read.val_main_v3 (F := Ideal) (m ((c : Thread nD τ).loc main_arg1)) :=
  (W5_of_ne m ρ c main_v3 (by decide)).trans ((W4_of_ne m ρ c main_v3 (by decide)).trans
    ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_v3) = W2 m ρ c (Proc.devRef .tc main_v3)).trans (at2_dst m ρ c)))
theorem at5_coef : W5 m ρ c (Proc.devRef .tc main_v25) = Cert.ReferenceIdeal.Read.val_main_v26 (F := Ideal) (m ((c : Thread nD τ).loc main_arg1)) :=
  (W5_of_ne m ρ c main_v25 (by decide)).trans ((W4_of_ne m ρ c main_v25 (by decide)).trans
    ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_v25) = W2 m ρ c (Proc.devRef .tc main_v25)).trans (at2_coef m ρ c)))
/-- The self-loop column is an input array of the first epilogue: that region leaves it as it found it. -/
theorem at5_selfloop : W5 m ρ c (Proc.devRef .tc main_v27) = shapeCast S100000x1 (Cert.ReferenceIdeal.Read.val_main_v40 (F := Ideal) (m ((c : Thread nD τ).loc main_arg1))) shapeCasts_S100000_S100000x1 :=
  (W5_of_ne m ρ c main_v27 (by decide)).trans ((W4_arr m ρ c 2).trans
    (((dat1 (V3 m ρ) c).arrAt_in 2 rfl _).trans ((A_eq1 (V3 m ρ) c 2).trans (entry1_selfloop m ρ c))))
theorem at5_arg5 : W5 m ρ c (Proc.devRef .tc main_arg5) = (m ((c : Thread nD τ).loc main_arg5)) :=
  (W5_of_ne m ρ c main_arg5 (by decide)).trans ((W4_of_ne m ρ c main_arg5 (by decide)).trans
    ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg5) = W2 m ρ c (Proc.devRef .tc main_arg5)).trans
      ((W2_of_ne m ρ c main_arg5 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg5) = W0 m ρ c (Proc.devRef .tc main_arg5)))))

set_option maxHeartbeats 2000000 in
/-- The second layer's aggregated messages. -/
theorem entry3_agg : V6 m ρ c main_v61 = Cert.ReferenceIdeal.Hand.aggregate (h2 m c) (m ((c : Thread nD τ).loc main_arg1)) := by
  show StableHlo.after hostOps3 (W5 m ρ c) (Proc.devRef .tc main_v61) = _
  after_results_simp
  rw [at5_src m ρ c, at5_dst m ρ c, at5_coef m ρ c, after2_h m ρ c]
  rfl

theorem entry3_h : V6 m ρ c main_v48 = h2 m c :=
  (StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps3 (W5 m ρ c) (Proc.devRef .tc main_v48) = W5 m ρ c (Proc.devRef .tc main_v48)).trans (after2_h m ρ c)
theorem entry3_selfloop : V6 m ρ c main_v27 = shapeCast S100000x1 (Cert.ReferenceIdeal.Read.val_main_v40 (F := Ideal) (m ((c : Thread nD τ).loc main_arg1))) shapeCasts_S100000_S100000x1 :=
  (StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps3 (W5 m ρ c) (Proc.devRef .tc main_v27) = W5 m ρ c (Proc.devRef .tc main_v27)).trans (at5_selfloop m ρ c)
theorem entry3_bias : V6 m ρ c main_v62 = shapeCast S1x32 (m ((c : Thread nD τ).loc main_arg5)) shapeCasts_S32_S1x32 := by
  show StableHlo.after hostOps3 (W5 m ρ c) (Proc.devRef .tc main_v62) = _
  after_results_simp
  rw [at5_arg5 m ρ c]
  rfl

/-! ## The last epilogue: the result -/

/-- THE KERNEL'S RESULT: after the last region the result buffer holds the specification of the ten arguments. -/
theorem result_eq_gcn : W7 m ρ c (Proc.devRef .tc main_v63)
    = Cert.ReferenceIdeal.Hand.gcn (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 4).trans ((final3 (V6 m ρ) c).trans ?_)
  unfold result3
  rw [entry3_agg m ρ c, entry3_h m ρ c, entry3_selfloop m ρ c, entry3_bias m ρ c]
  refine (Cert.Gcn.epilogueCR_cast (n := 100000) (f := 32) _ _ _ _ shapeCasts_S100000_S100000x1 shapeCasts_S32_S1x32).trans ?_
  unfold h2 z1 h1 Cert.ReferenceIdeal.Hand.gcn
  rfl

end Cert.KernelIdeal.Hand

end
-- ==== Proof.Claims.lean ====
/-
  The five claims.

  The three frames: the two kernel programs by their region-by-region run, the reference by its run with the result
  dropped. The idealization rewrote nothing, so there is nothing to preserve. The equivalence: the idealized kernel's
  result buffer ends at the specification of its ten arguments (the boundary walk), the reference's result is the same
  specification of its own arguments (the stage-by-stage reading), and the two memories agree on the arguments. No
  algebraic law is needed beyond reading both programs entry by entry — the two sides apply the same operations in the
  same order — so the finiteness precondition is never opened.
-/
import proofs.«124719_j53334903882347_2_alg».proof.Defs
import proofs.«124719_j53334903882347_2_alg».proof.Proof.Gen.Kernel.Frame
import proofs.«124719_j53334903882347_2_alg».proof.Proof.Gen.KernelIdeal.Frame
import proofs.«124719_j53334903882347_2_alg».proof.Proof.Gen.ReferenceIdeal.Run
import proofs.«124719_j53334903882347_2_alg».proof.Proof.Gen.ReferenceIdeal.Read
import proofs.«124719_j53334903882347_2_alg».proof.Proof.Gen.Pre_finite_inputs
import proofs.«124719_j53334903882347_2_alg».proof.Proof.KernelRun
import proofs.«124719_j53334903882347_2_alg».proof.Proof.HostChain
import proofs.«124719_j53334903882347_2_alg».proof.Proof.RefStages

set_option maxRecDepth 16384

noncomputable section

namespace Cert.Proof.GcnClaims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification of the agreed arguments in their result arrays. -/
theorem algebraic : Cert.algebraic_KernelIdeal_ReferenceIdeal := by
  intro m ρ m' ρ' _ hagree
  refine ⟨fun c => Cert.ReferenceIdeal.Hand.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.result_eq_gcn m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v108_eq, Cert.ReferenceIdeal.Hand.reference_eq_gcn, e0, e1, e2, e3, e4, e5, e6, e7, e8, e9]

end Cert.Proof.GcnClaims

end
-- ==== Proof.lean ====
/-
  Two graph-convolution layers over 100000 nodes and 1600000 edges: a Pallas kernel program against its jnp reference.

  The kernel program runs its two dense projections and its two entrywise epilogues (self loop, bias, clipping; after the
  first layer also the normalisation with running statistics) as four pipelined regions, and leaves the irregular
  message passing — gather by source node, scale by the edge coefficient, accumulate by destination node — to host
  operations; the reference does everything on the host. Over the extended reals the two programs compute the same
  function of the ten arguments: the projections are the same sums (rounding the operands to a shorter format changes
  nothing there), the epilogues the same entrywise expressions in the same order, and the message passing the very same
  operations on both sides.

  The modules: GcnSpec (the entrywise mathematics), GcnLayout (columns and rows carry the vectors' numbers), Payloads (each
  kernel body at an entry), Region0 … Region3 (each region's result array as one function of the arrays it is entered
  with), KernelRun (the kernel program's run with its result named), HostEarly and HostChain (the buffers boundary by
  boundary back to the arguments), RefStages (the reference stage by stage, and the specification), Claims.
-/
import proofs.«124719_j53334903882347_2_alg».proof.Defs
import proofs.«124719_j53334903882347_2_alg».proof.Proof.Gen.Kernel
import proofs.«124719_j53334903882347_2_alg».proof.Proof.Gen.Kernel.Skeleton
import proofs.«124719_j53334903882347_2_alg».proof.Proof.Gen.Kernel.Launch
import proofs.«124719_j53334903882347_2_alg».proof.Proof.Gen.Kernel.Points
import proofs.«124719_j53334903882347_2_alg».proof.Proof.Gen.Kernel.Frame
import proofs.«124719_j53334903882347_2_alg».proof.Proof.Gen.KernelIdeal
import proofs.«124719_j53334903882347_2_alg».proof.Proof.Gen.KernelIdeal.Skeleton
import proofs.«124719_j53334903882347_2_alg».proof.Proof.Gen.KernelIdeal.Launch
import proofs.«124719_j53334903882347_2_alg».proof.Proof.Gen.KernelIdeal.Points
import proofs.«124719_j53334903882347_2_alg».proof.Proof.Gen.KernelIdeal.Frame
import proofs.«124719_j53334903882347_2_alg».proof.Proof.Gen.ReferenceIdeal
import proofs.«124719_j53334903882347_2_alg».proof.Proof.Gen.ReferenceIdeal.Run
import proofs.«124719_j53334903882347_2_alg».proof.Proof.Gen.ReferenceIdeal.Read
import proofs.«124719_j53334903882347_2_alg».proof.Proof.Gen.Pre_finite_inputs
import proofs.«124719_j53334903882347_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    GcnClaims.frame_kernel, GcnClaims.frame_kernelIdeal, GcnClaims.frame_reference, GcnClaims.preserves, GcnClaims.algebraic⟩

end Cert.Proof

end
